-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S5000x128 : Shape := ⟨2, ![5000, 128]⟩
abbrev S1600000x128 : Shape := ⟨2, ![1600000, 128]⟩
abbrev S5000x1 : Shape := ⟨2, ![5000, 1]⟩

abbrev nBuf : Space → Nat
  | .hbm => 98
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S1x128, .f32⟩
  | .hbm, ⟨23, _⟩ => ⟨S1x128, .f32⟩
  | .hbm, ⟨24, _⟩ => ⟨S100000x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S1600000x1, .f32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000, .f32⟩
  | .hbm, ⟨80, _⟩ => ⟨S1600000, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x128, .f32⟩
  | .hbm, ⟨90, _⟩ => ⟨S1600000x1, .f32⟩
  | .hbm, ⟨91, _⟩ => ⟨S1600000x128, .f32⟩
  | .hbm, ⟨92, _⟩ => ⟨S1600000x128, .f32⟩
  | .hbm, ⟨93, _⟩ => ⟨S_, .f32⟩
  | .hbm, ⟨94, _⟩ => ⟨S100000x128, .f32⟩
  | .hbm, ⟨95, _⟩ => ⟨S1600000x1, .i32⟩
  | .hbm, ⟨96, _⟩ => ⟨S100000x128, .f32⟩
  | .hbm, ⟨97, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_10 : Ref sig .tc := ⟨.hbm, 71, rfl⟩
abbrev main_v53 : Ref sig .tc := ⟨.hbm, 72, rfl⟩
abbrev main_v54 : Ref sig .tc := ⟨.hbm, 73, rfl⟩
abbrev main_c_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_12 : Ref sig .tc := ⟨.hbm, 81, rfl⟩
abbrev main_v61 : Ref sig .tc := ⟨.hbm, 82, rfl⟩
abbrev main_v62 : Ref sig .tc := ⟨.hbm, 83, rfl⟩
abbrev main_c_13 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v73) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v14) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 124
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000, .f32⟩
  | .hbm, ⟨96, _⟩ => ⟨S1600000, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x128, .f32⟩
  | .hbm, ⟨106, _⟩ => ⟨S1600000x1, .f32⟩
  | .hbm, ⟨107, _⟩ => ⟨S1600000x128, .f32⟩
  | .hbm, ⟨108, _⟩ => ⟨S1600000x128, .f32⟩
  | .hbm, ⟨109, _⟩ => ⟨S_, .f32⟩
  | .hbm, ⟨110, _⟩ => ⟨S100000x128, .f32⟩
  | .hbm, ⟨111, _⟩ => ⟨S1600000x1, .i32⟩
  | .hbm, ⟨112, _⟩ => ⟨S100000x128, .f32⟩
  | .hbm, ⟨113, _⟩ => ⟨S100000, .f32⟩
  | .hbm, ⟨114, _⟩ => ⟨S100000x1, .f32⟩
  | .hbm, ⟨115, _⟩ => ⟨S100000x128, .f32⟩
  | .hbm, ⟨116, _⟩ => ⟨S100000x128, .f32⟩
  | .hbm, ⟨117, _⟩ => ⟨S100000x128, .f32⟩
  | .hbm, ⟨118, _⟩ => ⟨S1x128, .f32⟩
  | .hbm, ⟨119, _⟩ => ⟨S100000x128, .f32⟩
  | .hbm, ⟨120, _⟩ => ⟨S100000x128, .f32⟩
  | .hbm, ⟨121, _⟩ => ⟨S_, .f32⟩
  | .hbm, ⟨122, _⟩ => ⟨S100000x128, .f32⟩
  | .hbm, ⟨123, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_call1_cst : Ref sig .tc := ⟨.hbm, 121, rfl⟩
abbrev main_call1_v0 : Ref sig .tc := ⟨.hbm, 122, rfl⟩
abbrev main_v93 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.ResultRun.lean ====
/-
  The idealized kernel program's run with its RESULT named.

  @main is seven segments: a stretch of host operations, the first matrix-product region, a second stretch, the
  first finalizing region, the second matrix-product region, a third stretch, the second finalizing region. The
  generated frame proof already follows the buffer contents through all seven (`Gen.W0` … `Gen.W7`: a stretch
  applies its operations' fold, a region replaces its arrays by what its write-backs leave) and ends with every
  unscoped buffer holding `Gen.W7`'s contents. Here the same launch is read at one more buffer: the result array
  ends at `Gen.W7 … main_v74`, beside the six argument arrays, which end as launched.
-/
import proofs.«126328_j2491081031685_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last
    boundary's contents (the second finalizing region's write-backs over what the third host stretch left), and
    the argument arrays end as launched. -/
theorem run : θ_run defs (onTc (τ := τ) (main (F := F))) ⟨m, fun _ => 0, ρ⟩ (fun r => ∀ c : Dev nD,
      r.2.mem ((c.tc : Thread nD τ).loc main_v74) = W7 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v74 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.ResultRun

end
-- ==== Proof.MatmulPoint.lean ====
/-
  The matrix-product bodies at one element.

  Both matrix-product kernels load a block of 5000 rows of the left operand and the whole 128 x 128 right operand,
  narrow both to bf16 and multiply them into a zero accumulator. On the extended reals a change of float format is
  the identity and the product into zero is the plain sum, so entry (p, q) of what the body stores is
  the sum over k of left (p, k) * right (k, q). The second kernel's extra shape cast is a cast of a shape to itself.
-/
import proofs.«126328_j2491081031685_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.MatmulPoint

open Cert.KernelIdeal Cert.KernelIdeal.Gen Idealize.ShloMosaic Idealize.ShloMosaic.ValueIdx

/-- Row `j 0` of the left block at contraction position `k`. -/
abbrev leftAt (j : S5000x128.Idx) (k : Fin 128) : S5000x128.Idx := fun a => match a with
  | ⟨0, _⟩ => ⟨(j 0).val, (j 0).isLt⟩
  | ⟨1, _⟩ => ⟨k.val, k.isLt⟩
/-- Column `j 1` of the right operand at contraction position `k`. -/
abbrev rightAt (j : S5000x128.Idx) (k : Fin 128) : S128x128.Idx := fun a => match a with
  | ⟨0, _⟩ => ⟨k.val, k.isLt⟩
  | ⟨1, _⟩ => ⟨(j 1).val, (j 1).isLt⟩

theorem lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_contr (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block times the right operand into zero, read at one entry: the sum over the 128 contraction positions. -/
theorem product_apply (x : FVec Ideal S5000x128 .bf16) (w : FVec Ideal S128x128 .bf16) (j : S5000x128.Idx) :
    (matmul dot_S5000x128_S128x128_S5000x128_1_0_0_1_n_n none x w (constant (F := Ideal) S5000x128 .f32 0x00000000#32) : FVec Ideal S5000x128 .f32) j
      = ∑ k : Fin 128, x (leftAt j k) * w (rightAt j k) := by
  refine (Ideal.matmul_constant_zero_apply dot_S5000x128_S128x128_S5000x128_1_0_0_1_n_n none x w j).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx j ((contrEquiv1 dot_S5000x128_S128x128_S5000x128_1_0_0_1_n_n 128 rfl rfl).symm k) = leftAt j k := funext fun a => Fin.ext (by
    match a with
    | ⟨0, _⟩ => exact lhs_row _ _
    | ⟨1, _⟩ => exact (lhs_contr _ _).trans hk)
  have er : dot_S5000x128_S128x128_S5000x128_1_0_0_1_n_n.rhsIdx j ((contrEquiv1 dot_S5000x128_S128x128_S5000x128_1_0_0_1_n_n 128 rfl rfl).symm k) = rightAt j k := funext fun a => Fin.ext (by
    match a with
    | ⟨0, _⟩ => exact (rhs_contr _ _).trans hk
    | ⟨1, _⟩ => exact rhs_col _ _)
  rw [el, er]

/-- What the first matrix-product kernel stores, at one entry. -/
theorem first_apply (x : Vec Ideal S5000x128 .f32) (w : Vec Ideal S128x128 .f32) (j : S5000x128.Idx) :
    k0_pay1 (F := Ideal) x w j = ∑ k : Fin 128, x (leftAt j k) * w (rightAt j k) := by
  unfold k0_pay1
  exact product_apply _ _ j

/-- What the second matrix-product kernel stores, at one entry. -/
theorem second_apply (x : Vec Ideal S5000x128 .f32) (w : Vec Ideal S128x128 .f32) (j : S5000x128.Idx) :
    k2_pay1 (F := Ideal) x w j = ∑ k : Fin 128, x (leftAt j k) * w (rightAt j k) := by
  unfold k2_pay1
  refine (product_apply _ _ j).trans ?_
  refine Finset.sum_congr rfl fun k _ => ?_
  exact congrArg (· * w (rightAt j k)) (congrFun (shapeCast_self x shapeCasts_S5000x128_S5000x128) (leftAt j k))

end Cert.KernelIdeal.MatmulPoint

end
-- ==== Proof.FirstProduct.lean ====
/-
  The first matrix-product region: the features times the first weight matrix.

  The region's grid has 20 points; point t stages rows 5000 t … 5000 t + 4999 of the left operand (all 128 columns),
  the whole 128 x 128 right operand at every point, and writes back rows 5000 t … 5000 t + 4999 of the result.
  What point t writes back is therefore block t of ONE whole-array function of the two operand arrays as the region
  finds them: entry (r, q) is the sum over k of left (r, k) * right (k, q), which is how the host's dot_general
  reads at an index on the extended reals. The 20 blocks tile the 100000 rows (row r lies in block r / 5000), so
  the result array ends holding that function.
-/
import proofs.«126328_j2491081031685_1_alg».proof.Proof.Gen.KernelIdeal.Frame
import proofs.«126328_j2491081031685_1_alg».proof.Proof.Gen.ReferenceIdeal.Read
import proofs.«126328_j2491081031685_1_alg».proof.Proof.MatmulPoint
import Idealize.ShloMosaic.Lib.Pipeline.Value

set_option maxRecDepth 16384

noncomputable section

namespace Cert.KernelIdeal.FirstProduct

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The three index maps over the grid: the left operand's and the result's row block is the point, their column
    block 0; the right operand's block is (0, 0) at every point. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the matrix product of the two operand arrays. -/
theorem flushed_eq (c : Dev nD) (t : Fin cfg0.N) :
    (dat0 V c).flushed 2 t = ((cfg0.win 2).blk t).view.read (Elt Ideal)
      (Cert.ReferenceIdeal.Read.val_main_v4 (F := Ideal) (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e00, e01, e10, e11, e20, e21⟩ := index_maps t
  funext j
  show k0_pay1 (F := Ideal) (iblk0 V c 0 t) (iblk0 V c 1 t) j
      = Cert.ReferenceIdeal.Read.val_main_v4 (F := Ideal) (V c main_arg0) (V c main_arg2) (((cfg0.win 2).blk t).view.emb j)
  rw [Cert.ReferenceIdeal.Read.val_main_v4_apply]
  refine (Cert.KernelIdeal.MatmulPoint.first_apply _ _ j).trans ?_
  refine Finset.sum_congr rfl fun k _ => ?_
  have hl : ((cfg0.win 0).blk t).view.emb (Cert.KernelIdeal.MatmulPoint.leftAt j k)
      = Cert.ReferenceIdeal.Read.lidx_main_v4 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hr : ((cfg0.win 1).blk t).view.emb (Cert.KernelIdeal.MatmulPoint.rightAt j k)
      = Cert.ReferenceIdeal.Read.ridx_main_v4 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  refine congrArg₂ (· * ·) ?_ ?_
  · exact congrArg (V c main_arg0) hl
  · exact congrArg (V c main_arg2) hr

/-- An index of the result array is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v15).slice (win0_2.rect t)).set ↔ _
  rw [View.set_slice_whole, Rect.mem_set_unit]
  exact Iff.rfl

/-- Every index of the result array lies in the block of the point its row divides to. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 5000 < cfg0.N := by show (i 0).val / 5000 < grid0.N; rw [N_0]; omega
  obtain ⟨-, -, -, -, e20, e21⟩ := index_maps ⟨(i 0).val / 5000, hN⟩
  refine ⟨⟨(i 0).val / 5000, hN⟩, flush0_2 _, ?_⟩
  rw [mem_block]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, hN⟩ (1 : Fin 2) * 128 ≤ (i 1).val ∧ (i 1).val < win0_2.index ⟨(i 0).val / 5000, hN⟩ (1 : Fin 2) * 128 + 128
    rw [e21]; omega

/-- The result array after the region: the matrix product of the two operand arrays as the region finds them. -/
theorem result (c : Dev nD) : (dat0 V c).arrAt 2 cfg0.N
    = Cert.ReferenceIdeal.Read.val_main_v4 (F := Ideal) (V c main_arg0) (V c main_arg2) :=
  (dat0 V c).arrAt_eq_of_cover 2 _ (fun t _ => flushed_eq V c t) (covered)

end Cert.KernelIdeal.FirstProduct

end
-- ==== Proof.SecondProduct.lean ====
/-
  The second matrix-product region: the first layer's output times the second weight matrix.

  The region's grid has 20 points; point t stages rows 5000 t … 5000 t + 4999 of the left operand (all 128 columns),
  the whole 128 x 128 right operand at every point, and writes back rows 5000 t … 5000 t + 4999 of the result.
  What point t writes back is therefore block t of ONE whole-array function of the two operand arrays as the region
  finds them: entry (r, q) is the sum over k of left (r, k) * right (k, q), which is how the host's dot_general
  reads at an index on the extended reals. The 20 blocks tile the 100000 rows (row r lies in block r / 5000), so
  the result array ends holding that function.
-/
import proofs.«126328_j2491081031685_1_alg».proof.Proof.Gen.KernelIdeal.Frame
import proofs.«126328_j2491081031685_1_alg».proof.Proof.Gen.ReferenceIdeal.Read
import proofs.«126328_j2491081031685_1_alg».proof.Proof.MatmulPoint
import Idealize.ShloMosaic.Lib.Pipeline.Value

set_option maxRecDepth 16384

noncomputable section

namespace Cert.KernelIdeal.SecondProduct

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The three index maps over the grid: the left operand's and the result's row block is the point, their column
    block 0; the right operand's block is (0, 0) at every point. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the matrix product of the two operand arrays. -/
theorem flushed_eq (c : Dev nD) (t : Fin cfg2.N) :
    (dat2 V c).flushed 2 t = ((cfg2.win 2).blk t).view.read (Elt Ideal)
      (Cert.ReferenceIdeal.Read.val_main_v4 (F := Ideal) (V c main_v44) (V c main_arg4)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  obtain ⟨e00, e01, e10, e11, e20, e21⟩ := index_maps t
  funext j
  show k2_pay1 (F := Ideal) (iblk2 V c 0 t) (iblk2 V c 1 t) j
      = Cert.ReferenceIdeal.Read.val_main_v4 (F := Ideal) (V c main_v44) (V c main_arg4) (((cfg2.win 2).blk t).view.emb j)
  rw [Cert.ReferenceIdeal.Read.val_main_v4_apply]
  refine (Cert.KernelIdeal.MatmulPoint.second_apply _ _ j).trans ?_
  refine Finset.sum_congr rfl fun k _ => ?_
  have hl : ((cfg2.win 0).blk t).view.emb (Cert.KernelIdeal.MatmulPoint.leftAt j k)
      = Cert.ReferenceIdeal.Read.lidx_main_v4 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hr : ((cfg2.win 1).blk t).view.emb (Cert.KernelIdeal.MatmulPoint.rightAt j k)
      = Cert.ReferenceIdeal.Read.ridx_main_v4 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  refine congrArg₂ (· * ·) ?_ ?_
  · exact congrArg (V c main_v44) hl
  · exact congrArg (V c main_arg4) hr

/-- An index of the result array is in point `t`'s block iff each coordinate is in the block's range on its axis. -/
theorem mem_block (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v45).slice (win2_2.rect t)).set ↔ _
  rw [View.set_slice_whole, Rect.mem_set_unit]
  exact Iff.rfl

/-- Every index of the result array lies in the block of the point its row divides to. -/
theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : (i 0).val / 5000 < cfg2.N := by show (i 0).val / 5000 < grid2.N; rw [N_2]; omega
  obtain ⟨-, -, -, -, e20, e21⟩ := index_maps ⟨(i 0).val / 5000, hN⟩
  refine ⟨⟨(i 0).val / 5000, hN⟩, flush2_2 _, ?_⟩
  rw [mem_block]
  intro a
  match a with
  | ⟨0, _⟩ =>
    show win2_2.index ⟨(i 0).val / 5000, hN⟩ (0 : Fin 2) * 5000 ≤ (i 0).val ∧ (i 0).val < win2_2.index ⟨(i 0).val / 5000, hN⟩ (0 : Fin 2) * 5000 + 5000
    rw [e20]; show (i 0).val / 5000 * 5000 ≤ (i 0).val ∧ (i 0).val < (i 0).val / 5000 * 5000 + 5000; omega
  | ⟨1, _⟩ =>
    show win2_2.index ⟨(i 0).val / 5000, hN⟩ (1 : Fin 2) * 128 ≤ (i 1).val ∧ (i 1).val < win2_2.index ⟨(i 0).val / 5000, hN⟩ (1 : Fin 2) * 128 + 128
    rw [e21]; omega

/-- The result array after the region: the matrix product of the two operand arrays as the region finds them. -/
theorem result (c : Dev nD) : (dat2 V c).arrAt 2 cfg2.N
    = Cert.ReferenceIdeal.Read.val_main_v4 (F := Ideal) (V c main_v44) (V c main_arg4) :=
  (dat2 V c).arrAt_eq_of_cover 2 _ (fun t _ => flushed_eq V c t) (covered)

end Cert.KernelIdeal.SecondProduct

end
-- ==== Proof.FinalizePoint.lean ====
/-
  The finalizing bodies at one element.

  Both finalizing kernels load a block of 5000 rows of the aggregated messages, the same rows of the matrix product,
  the same rows of the one-column array of squared inverse-root degrees, and the one-row bias, and store
  max ((agg + h * d) + b, 0) with the column spread along the 128 lanes and the bias row spread down the 5000 rows.
  So entry (p, q) of what the body stores reads the two blocks at (p, q), the column at (p, 0) and the row at (0, q).
  The shape casts in the body are casts of a shape to itself.
-/
import proofs.«126328_j2491081031685_1_alg».proof.Proof.Gen.KernelIdeal.Skeleton
import Idealize.ShloMosaic.Lib.ValueIdx
import Idealize.ShloMosaic.Lib.Pipeline.Value

noncomputable section

namespace Cert.KernelIdeal.FinalizePoint

open Cert.KernelIdeal Cert.KernelIdeal.Gen Idealize.ShloMosaic Idealize.ShloMosaic.ValueIdx

/-- The entry of the one-column block in row `j 0`. -/
abbrev colAt (j : S5000x128.Idx) : S5000x1.Idx := fun a => match a with
  | ⟨0, _⟩ => ⟨(j 0).val, (j 0).isLt⟩
  | ⟨1, _⟩ => ⟨0, Nat.one_pos⟩
/-- The entry of the one-row block in lane `j 1`. -/
abbrev rowAt (j : S5000x128.Idx) : S1x128.Idx := fun a => match a with
  | ⟨0, _⟩ => ⟨0, Nat.one_pos⟩
  | ⟨1, _⟩ => ⟨(j 1).val, (j 1).isLt⟩

/-- The column spread along the lanes, read at one entry. -/
theorem spread_col (d : FVec Ideal S5000x1 .f32) (j : S5000x128.Idx) :
    (broadcastTo S5000x128 d broadcasts_S5000x1_S5000x128 : FVec Ideal S5000x128 .f32) j = d (colAt j) :=
  broadcastTo_apply d broadcasts_S5000x1_S5000x128 j (colAt j) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])

/-- The bias row spread down the rows, read at one entry. -/
theorem spread_row (b : FVec Ideal S1x128 .f32) (j : S5000x128.Idx) :
    (broadcastTo S5000x128 b broadcasts_S1x128_S5000x128 : FVec Ideal S5000x128 .f32) j = b (rowAt j) :=
  broadcastTo_apply b broadcasts_S1x128_S5000x128 j (rowAt j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-- max ((agg + h * d) + b, 0) with the column and the row spread, at one entry. -/
theorem combine_apply (a h : FVec Ideal S5000x128 .f32) (d : FVec Ideal S5000x1 .f32) (b : FVec Ideal S1x128 .f32) (j : S5000x128.Idx) :
    (maximumf (addf (addf a (mulf h (broadcastTo S5000x128 d broadcasts_S5000x1_S5000x128)))
        (broadcastTo S5000x128 b broadcasts_S1x128_S5000x128)) (broadcast S5000x128 (Scalar.ofBits (F := Ideal) .f32 0x00000000#32)) : FVec Ideal S5000x128 .f32) j
      = max ((a j + h j * d (colAt j)) + b (rowAt j)) (Ideal.ofBits .f32 0x00000000#32) := by
  show max ((a j + h j * (broadcastTo S5000x128 d broadcasts_S5000x1_S5000x128 : FVec Ideal S5000x128 .f32) j)
      + (broadcastTo S5000x128 b broadcasts_S1x128_S5000x128 : FVec Ideal S5000x128 .f32) j) (Ideal.ofBits .f32 0x00000000#32) = _
  rw [spread_col, spread_row]

/-- What the first finalizing kernel stores, at one entry. -/
theorem first_apply (a h : Vec Ideal S5000x128 .f32) (d : Vec Ideal S5000x1 .f32) (b : Vec Ideal S1x128 .f32) (j : S5000x128.Idx) :
    k1_pay1 (F := Ideal) a h d b j = max ((a j + h j * d (colAt j)) + b (rowAt j)) (Ideal.ofBits .f32 0x00000000#32) := by
  unfold k1_pay1
  have ea : shapeCast S5000x128 a shapeCasts_S5000x128_S5000x128 = a := shapeCast_self a _
  have eh : shapeCast S5000x128 h shapeCasts_S5000x128_S5000x128 = h := shapeCast_self h _
  have ed : shapeCast S5000x1 (shapeCast S5000x1 d shapeCasts_S5000x1_S5000x1) shapeCasts_S5000x1_S5000x1 = d :=
    (shapeCast_self _ _).trans (shapeCast_self d _)
  have eb : shapeCast S1x128 (shapeCast S1x128 b shapeCasts_S1x128_S1x128) shapeCasts_S1x128_S1x128 = b :=
    (shapeCast_self _ _).trans (shapeCast_self b _)
  rw [ea, eh, ed, eb]
  exact combine_apply a h d b j

/-- What the second finalizing kernel stores, at one entry. -/
theorem second_apply (a h : Vec Ideal S5000x128 .f32) (d : Vec Ideal S5000x1 .f32) (b : Vec Ideal S1x128 .f32) (j : S5000x128.Idx) :
    k3_pay1 (F := Ideal) a h d b j = max ((a j + h j * d (colAt j)) + b (rowAt j)) (Ideal.ofBits .f32 0x00000000#32) := by
  unfold k3_pay1
  have ea : shapeCast S5000x128 a shapeCasts_S5000x128_S5000x128 = a := shapeCast_self a _
  have eh : shapeCast S5000x128 h shapeCasts_S5000x128_S5000x128 = h := shapeCast_self h _
  have ed : shapeCast S5000x1 (shapeCast S5000x1 d shapeCasts_S5000x1_S5000x1) shapeCasts_S5000x1_S5000x1 = d :=
    (shapeCast_self _ _).trans (shapeCast_self d _)
  have eb : shapeCast S1x128 (shapeCast S1x128 b shapeCasts_S1x128_S1x128) shapeCasts_S1x128_S1x128 = b :=
    (shapeCast_self _ _).trans (shapeCast_self b _)
  rw [ea, eh, ed, eb]
  exact combine_apply a h d b j

end Cert.KernelIdeal.FinalizePoint

end
-- ==== Proof.Finalized.lean ====
/-
  What a finalizing region computes, as one whole-array function.

  Given the aggregated messages `a` and the matrix product `h` (both 100000 x 128), the one-column array `d` of
  squared inverse-root degrees (100000 x 1) and the one-row bias `b` (1 x 128), entry (r, q) of the result is
  max ((a (r, q) + h (r, q) * d (r, 0)) + b (0, q), 0) on the extended reals.
-/
import proofs.«126328_j2491081031685_1_alg».proof.KernelIdeal
import Idealize.ShloMosaic.PureOps.Ideal

noncomputable section

namespace Cert.KernelIdeal.Finalized

open Cert.KernelIdeal Idealize.ShloMosaic

/-- The entry of the one-column array in row `i 0`. -/
abbrev colOf (i : S100000x128.Idx) : S100000x1.Idx := fun a => match a with
  | ⟨0, _⟩ => ⟨(i 0).val, (i 0).isLt⟩
  | ⟨1, _⟩ => ⟨0, Nat.one_pos⟩
/-- The entry of the one-row bias in lane `i 1`. -/
abbrev rowOf (i : S100000x128.Idx) : S1x128.Idx := fun a => match a with
  | ⟨0, _⟩ => ⟨0, Nat.one_pos⟩
  | ⟨1, _⟩ => ⟨(i 1).val, (i 1).isLt⟩

/-- max ((a + h * d) + b, 0), the column spread along the lanes and the bias row down the rows. -/
def finalized (a h : S100000x128.Idx → EReal) (d : S100000x1.Idx → EReal) (b : S1x128.Idx → EReal) : S100000x128.Idx → EReal :=
  fun i => max ((a i + h i * d (colOf i)) + b (rowOf i)) (Ideal.ofBits .f32 0x00000000#32)

theorem finalized_apply (a h : S100000x128.Idx → EReal) (d : S100000x1.Idx → EReal) (b : S1x128.Idx → EReal) (i : S100000x128.Idx) :
    finalized a h d b i = max ((a i + h i * d (colOf i)) + b (rowOf i)) (Ideal.ofBits .f32 0x00000000#32) := rfl

end Cert.KernelIdeal.Finalized

end
-- ==== Proof.FirstFinalize.lean ====
/-
  The first finalizing region: the first layer's aggregated messages, self-loop term, bias and rectifier.

  The region's grid has 20 points; point t stages rows 5000 t … 5000 t + 4999 of the aggregated messages, of the
  matrix product and of the one-column array of squared inverse-root degrees, the one-row bias at every point, and
  writes back rows 5000 t … 5000 t + 4999 of the result. What point t writes back is block t of ONE whole-array
  function of the four arrays as the region finds them (`Finalized.finalized`): the two full-width blocks are read
  at the result's own index, the column at (r, 0), the bias at (0, q). The 20 blocks tile the 100000 rows, so the
  result array ends holding that function.
-/
import proofs.«126328_j2491081031685_1_alg».proof.Proof.Gen.KernelIdeal.Frame
import proofs.«126328_j2491081031685_1_alg».proof.Proof.FinalizePoint
import proofs.«126328_j2491081031685_1_alg».proof.Proof.Finalized
import Idealize.ShloMosaic.Lib.Pipeline.Value

set_option maxRecDepth 16384

noncomputable section

namespace Cert.KernelIdeal.FirstFinalize

open Cert.KernelIdeal Cert.KernelIdeal.Gen Cert.KernelIdeal.Finalized
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The five index maps over the grid: every row-tiled window's row block is the point and its column block 0;
    the bias row's block is (0, 0) at every point. -/
theorem index_maps : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the finalized array. -/
theorem flushed_eq (c : Dev nD) (t : Fin cfg1.N) :
    (dat1 V c).flushed 4 t = ((cfg1.win 4).blk t).view.read (Elt Ideal)
      (finalized (V c main_v43) (V c main_v15) (V c main_v12) (V c main_v13)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets, View.ld_unit_zero (S := S1x128) zero_offsets]
  obtain ⟨e00, e01, e10, e11, e20, e21, e30, e31, e40, e41⟩ := index_maps t
  funext j
  show k1_pay1 (F := Ideal) (iblk1 V c 0 t) (iblk1 V c 1 t) (iblk1 V c 2 t) (iblk1 V c 3 t) j
      = finalized (V c main_v43) (V c main_v15) (V c main_v12) (V c main_v13) (((cfg1.win 4).blk t).view.emb j)
  rw [finalized_apply]
  refine (Cert.KernelIdeal.FinalizePoint.first_apply _ _ _ _ j).trans ?_
  have h0 : ((cfg1.win 0).blk t).view.emb j = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  have h1 : ((cfg1.win 1).blk t).view.emb j = ((cfg1.win 4).blk t).view.emb j := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  have h2 : ((cfg1.win 2).blk t).view.emb (Cert.KernelIdeal.FinalizePoint.colAt j) = colOf (((cfg1.win 4).blk t).view.emb j) := by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  have h3 : ((cfg1.win 3).blk t).view.emb (Cert.KernelIdeal.FinalizePoint.rowAt j) = rowOf (((cfg1.win 4).blk t).view.emb j) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  refine congrArg₂ max (congrArg₂ (· + ·) (congrArg₂ (· + ·) ?_ (congrArg₂ (· * ·) ?_ ?_)) ?_) rfl
  · exact congrArg (V c main_v43) h0
  · exact congrArg (V c main_v15) h1
  · exact congrArg (V c main_v12) h2
  · exact congrArg (V c main_v13) h3

/-- An index of the result array is in point `t`'s block iff each coordinate is in the block's range on its axis. -/
theorem mem_block (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v44).slice (win1_4.rect t)).set ↔ _
  rw [View.set_slice_whole, Rect.mem_set_unit]
  exact Iff.rfl

/-- Every index of the result array lies in the block of the point its row divides to. -/
theorem covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : (i 0).val / 5000 < cfg1.N := by show (i 0).val / 5000 < grid1.N; rw [N_1]; omega
  obtain ⟨-, -, -, -, -, -, -, -, e40, e41⟩ := index_maps ⟨(i 0).val / 5000, hN⟩
  refine ⟨⟨(i 0).val / 5000, hN⟩, flush1_4 _, ?_⟩
  rw [mem_block]
  intro a
  match a with
  | ⟨0, _⟩ =>
    show win1_4.index ⟨(i 0).val / 5000, hN⟩ (0 : Fin 2) * 5000 ≤ (i 0).val ∧ (i 0).val < win1_4.index ⟨(i 0).val / 5000, hN⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, hN⟩ (1 : Fin 2) * 128 ≤ (i 1).val ∧ (i 1).val < win1_4.index ⟨(i 0).val / 5000, hN⟩ (1 : Fin 2) * 128 + 128
    rw [e41]; omega

/-- The result array after the region: the finalized array of the four arrays as the region finds them. -/
theorem result (c : Dev nD) : (dat1 V c).arrAt 4 cfg1.N
    = finalized (V c main_v43) (V c main_v15) (V c main_v12) (V c main_v13) :=
  (dat1 V c).arrAt_eq_of_cover 4 _ (fun t _ => flushed_eq V c t) (covered)

end Cert.KernelIdeal.FirstFinalize

end
-- ==== Proof.SecondFinalize.lean ====
/-
  The second finalizing region: the second layer's aggregated messages, self-loop term, bias and rectifier.

  The region's grid has 20 points; point t stages rows 5000 t … 5000 t + 4999 of the aggregated messages, of the
  matrix product and of the one-column array of squared inverse-root degrees, the one-row bias at every point, and
  writes back rows 5000 t … 5000 t + 4999 of the result. What point t writes back is block t of ONE whole-array
  function of the four arrays as the region finds them (`Finalized.finalized`): the two full-width blocks are read
  at the result's own index, the column at (r, 0), the bias at (0, q). The 20 blocks tile the 100000 rows, so the
  result array ends holding that function.
-/
import proofs.«126328_j2491081031685_1_alg».proof.Proof.Gen.KernelIdeal.Frame
import proofs.«126328_j2491081031685_1_alg».proof.Proof.FinalizePoint
import proofs.«126328_j2491081031685_1_alg».proof.Proof.Finalized
import Idealize.ShloMosaic.Lib.Pipeline.Value

set_option maxRecDepth 16384

noncomputable section

namespace Cert.KernelIdeal.SecondFinalize

open Cert.KernelIdeal Cert.KernelIdeal.Gen Cert.KernelIdeal.Finalized
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The five index maps over the grid: every row-tiled window's row block is the point and its column block 0;
    the bias row's block is (0, 0) at every point. -/
theorem index_maps : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the finalized array. -/
theorem flushed_eq (c : Dev nD) (t : Fin cfg3.N) :
    (dat3 V c).flushed 4 t = ((cfg3.win 4).blk t).view.read (Elt Ideal)
      (finalized (V c main_v73) (V c main_v45) (V c main_v12) (V c main_v14)) := by
  show (cfg3.win 4).cut (grid3.coords t) ((dat3 V c).after 4 t) = _
  rw [after3_4]
  unfold out3_4
  rw [View.canon_unit_zero zero_offsets]
  simp only [View.ld_unit_zero (S := S5000x128) zero_offsets, View.ld_unit_zero (S := S5000x1) zero_offsets, View.ld_unit_zero (S := S1x128) zero_offsets]
  obtain ⟨e00, e01, e10, e11, e20, e21, e30, e31, e40, e41⟩ := index_maps t
  funext j
  show k3_pay1 (F := Ideal) (iblk3 V c 0 t) (iblk3 V c 1 t) (iblk3 V c 2 t) (iblk3 V c 3 t) j
      = finalized (V c main_v73) (V c main_v45) (V c main_v12) (V c main_v14) (((cfg3.win 4).blk t).view.emb j)
  rw [finalized_apply]
  refine (Cert.KernelIdeal.FinalizePoint.second_apply _ _ _ _ j).trans ?_
  have h0 : ((cfg3.win 0).blk t).view.emb j = ((cfg3.win 4).blk t).view.emb j := by
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  have h1 : ((cfg3.win 1).blk t).view.emb j = ((cfg3.win 4).blk t).view.emb j := by
    funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 128 + 1 * (j 1).val = win3_4.index t (1 : Fin 2) * 128 + 1 * (j 1).val; omega
  have h2 : ((cfg3.win 2).blk t).view.emb (Cert.KernelIdeal.FinalizePoint.colAt j) = colOf (((cfg3.win 4).blk t).view.emb j) := by
    funext a; apply Fin.ext
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  have h3 : ((cfg3.win 3).blk t).view.emb (Cert.KernelIdeal.FinalizePoint.rowAt j) = rowOf (((cfg3.win 4).blk t).view.emb j) := by
    funext a; apply Fin.ext
    match a with
    | ⟨0, _⟩ => show win3_3.index t (0 : Fin 2) * 1 + 1 * 0 = 0; omega
    | ⟨1, _⟩ => show win3_3.index t (1 : Fin 2) * 128 + 1 * (j 1).val = win3_4.index t (1 : Fin 2) * 128 + 1 * (j 1).val; omega
  refine congrArg₂ max (congrArg₂ (· + ·) (congrArg₂ (· + ·) ?_ (congrArg₂ (· * ·) ?_ ?_)) ?_) rfl
  · exact congrArg (V c main_v73) h0
  · exact congrArg (V c main_v45) h1
  · exact congrArg (V c main_v12) h2
  · exact congrArg (V c main_v14) h3

/-- An index of the result array is in point `t`'s block iff each coordinate is in the block's range on its axis. -/
theorem mem_block (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v74).slice (win3_4.rect t)).set ↔ _
  rw [View.set_slice_whole, Rect.mem_set_unit]
  exact Iff.rfl

/-- Every index of the result array lies in the block of the point its row divides to. -/
theorem covered (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : (i 0).val / 5000 < cfg3.N := by show (i 0).val / 5000 < grid3.N; rw [N_3]; omega
  obtain ⟨-, -, -, -, -, -, -, -, e40, e41⟩ := index_maps ⟨(i 0).val / 5000, hN⟩
  refine ⟨⟨(i 0).val / 5000, hN⟩, flush3_4 _, ?_⟩
  rw [mem_block]
  intro a
  match a with
  | ⟨0, _⟩ =>
    show win3_4.index ⟨(i 0).val / 5000, hN⟩ (0 : Fin 2) * 5000 ≤ (i 0).val ∧ (i 0).val < win3_4.index ⟨(i 0).val / 5000, hN⟩ (0 : Fin 2) * 5000 + 5000
    rw [e40]; show (i 0).val / 5000 * 5000 ≤ (i 0).val ∧ (i 0).val < (i 0).val / 5000 * 5000 + 5000; omega
  | ⟨1, _⟩ =>
    show win3_4.index ⟨(i 0).val / 5000, hN⟩ (1 : Fin 2) * 128 ≤ (i 1).val ∧ (i 1).val < win3_4.index ⟨(i 0).val / 5000, hN⟩ (1 : Fin 2) * 128 + 128
    rw [e41]; omega

/-- The result array after the region: the finalized array of the four arrays as the region finds them. -/
theorem result (c : Dev nD) : (dat3 V c).arrAt 4 cfg3.N
    = finalized (V c main_v73) (V c main_v45) (V c main_v12) (V c main_v14) :=
  (dat3 V c).arrAt_eq_of_cover 4 _ (fun t _ => flushed_eq V c t) (covered)

end Cert.KernelIdeal.SecondFinalize

end
-- ==== Proof.Layers.lean ====
/-
  The finalized arrays are the reference's layer outputs.

  The reference computes a layer as relu ((agg + h * (dinv * dinv)[:, None]) + b[None, :]), the two keepdims forms
  spelt as broadcasts: [100000] to [100000, 1] to [100000, 128] for the squared inverse-root degrees, [128] to
  [1, 128] to [100000, 128] for the bias. The kernel's program instead reshapes the squared degrees to a column
  [100000, 1] and the bias to a row [1, 128] on the host and spreads them inside the finalizing kernel. Entry
  (r, q) reads the degrees at r and the bias at q either way, and the arithmetic, max ((agg + h * d) + b, 0), is
  grouped alike on both sides, so the two arrays are equal as they stand, infinite entries included.
  The reference computes the inverse-root degrees once per layer from the same edge list; the two computations are
  one term. Its second matrix product is the first one's operation applied to the first layer's output.
-/
import proofs.«126328_j2491081031685_1_alg».proof.Proof.Gen.ReferenceIdeal.Read
import proofs.«126328_j2491081031685_1_alg».proof.Proof.Finalized
import Idealize.ShloMosaic.Lib.Pipeline.Value

noncomputable section

namespace Cert.Layers

open Cert.ReferenceIdeal Cert.ReferenceIdeal.Read Cert.KernelIdeal.Finalized Idealize.ShloMosaic

/-- A vector reshaped to a column, read in row `i 0`: the vector's entry `i 0`. -/
theorem column_apply (y : Cert.KernelIdeal.S100000.Idx → EReal) (hc : Cert.KernelIdeal.S100000.ShapeCasts Cert.KernelIdeal.S100000x1)
    (i : Cert.KernelIdeal.S100000x128.Idx) (k : Cert.KernelIdeal.S100000.Idx) (hk : (k 0).val = (i 0).val) :
    shapeCast Cert.KernelIdeal.S100000x1 y hc (colOf i) = y k :=
  shapeCast_apply y _ (colOf i) k (by
    rw [Shape.rowMajor_val_two, Shape.rowMajor_val_one]
    show (k 0).val = (i 0).val * 1 + 0
    omega)

/-- A vector reshaped to a row, read in lane `i 1`: the vector's entry `i 1`. -/
theorem row_apply (y : Cert.KernelIdeal.S128.Idx → EReal) (hr : Cert.KernelIdeal.S128.ShapeCasts Cert.KernelIdeal.S1x128)
    (i : Cert.KernelIdeal.S100000x128.Idx) (k : Cert.KernelIdeal.S128.Idx) (hk : (k 0).val = (i 1).val) :
    shapeCast Cert.KernelIdeal.S1x128 y hr (rowOf i) = y k :=
  shapeCast_apply y _ (rowOf i) k (by
    rw [Shape.rowMajor_val_two, Shape.rowMajor_val_one]
    show (k 0).val = 0 * 128 + (i 1).val
    omega)

/-- The first layer's output: the finalized array of the aggregated messages, the first matrix product, the
    squared inverse-root degrees as a column and the first bias as a row. -/
theorem first_layer (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (hc : Cert.KernelIdeal.S100000.ShapeCasts Cert.KernelIdeal.S100000x1) (hr : Cert.KernelIdeal.S128.ShapeCasts Cert.KernelIdeal.S1x128) :
    finalized (val_main_v39 (F := Ideal) x0 x1 x2) (val_main_v4 (F := Ideal) x0 x2)
        (shapeCast Cert.KernelIdeal.S100000x1 (val_main_v40 (F := Ideal) x1) hc)
        (shapeCast Cert.KernelIdeal.S1x128 x3 hr)
      = val_main_v48 (F := Ideal) x0 x1 x2 x3 := by
  funext i
  rw [finalized_apply, val_main_v48_apply, val_main_v47_apply, val_main_v44_apply, val_main_v43_apply, val_main_v46_apply,
    val_main_v45_apply, val_main_v42_apply, val_main_v41_apply, val_main_call0_v0_apply, val_main_call0_cst_apply,
    column_apply _ hc i (idx_main_v41 (idx_main_v42 i)) rfl, row_apply _ hr i (idx_main_v45 (idx_main_v46 i)) rfl]
  rfl

/-- The reference's second computation of the inverse-root degrees is its first. -/
theorem second_degrees (x1 : (⟨S2x1600000, .i32⟩ : BufTy).Contents (Elt Ideal)) :
    val_main_v56 (F := Ideal) x1 = val_main_v11 (F := Ideal) x1 := by
  unfold val_main_v56 val_main_v55 val_main_v54 val_main_v53 val_main_v52 val_main_v51 val_main_v50 val_main_cst_10 val_main_cst_9 val_main_cst_8
    val_main_v11 val_main_v10 val_main_v9 val_main_v8 val_main_v7 val_main_v6 val_main_v5 val_main_cst_1 val_main_cst_0 val_main_cst
  rfl

/-- The reference's second matrix product is the first one's operation on the first layer's output. -/
theorem second_product (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v4 (F := Ideal) (val_main_v48 (F := Ideal) x0 x1 x2 x3) x4 = val_main_v49 (F := Ideal) x0 x1 x2 x3 x4 := rfl

/-- The second layer's output: the finalized array of the second aggregated messages, the second matrix product, the
    same column of squared inverse-root degrees and the second bias as a row. -/
theorem second_layer (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (hc : Cert.KernelIdeal.S100000.ShapeCasts Cert.KernelIdeal.S100000x1) (hr : Cert.KernelIdeal.S128.ShapeCasts Cert.KernelIdeal.S1x128) :
    finalized (val_main_v84 (F := Ideal) x0 x1 x2 x3 x4) (val_main_v49 (F := Ideal) x0 x1 x2 x3 x4)
        (shapeCast Cert.KernelIdeal.S100000x1 (val_main_v40 (F := Ideal) x1) hc)
        (shapeCast Cert.KernelIdeal.S1x128 x5 hr)
      = val_main_v93 (F := Ideal) x0 x1 x2 x3 x4 x5 := by
  funext i
  rw [finalized_apply, val_main_v93_apply, val_main_v92_apply, val_main_v89_apply, val_main_v88_apply, val_main_v91_apply,
    val_main_v90_apply, val_main_v87_apply, val_main_v86_apply, val_main_call1_v0_apply, val_main_call1_cst_apply,
    column_apply _ hc i (idx_main_v86 (idx_main_v87 i)) rfl, row_apply _ hr i (idx_main_v90 (idx_main_v91 i)) rfl]
  have e : val_main_v85 (F := Ideal) x1 = val_main_v40 (F := Ideal) x1 := by
    unfold val_main_v85 val_main_v40
    rw [second_degrees]
  rw [e]
  rfl

end Cert.Layers

end
-- ==== Proof.Boundaries.lean ====
/-
  The kernel program's buffers, boundary by boundary, as functions of the six argument arrays.

  @main's seven segments leave eight boundaries, whose contents the generated frame names `W0` (the launch) to `W7`
  (the return). Walking them in order:
    * the first host stretch reads the source and destination rows off the edge list, counts each node's incoming
      edges into its degree, takes the inverse root, squares it into a column, and lays the two biases out as rows;
    * the first matrix-product region leaves x W1;
    * the second host stretch gathers its rows along the sources, scales each by the product of the two endpoints'
      inverse-root degrees and adds them up per destination;
    * the first finalizing region leaves the first layer's output; the second matrix-product region multiplies it by
      W2; the third host stretch aggregates again; the second finalizing region leaves the result.
  Every host stretch is the reference's own chain of operations on the same values, so it is carried as a whole and
  never opened: each of these buffers is the reference's stage of the same name-by-position (`val_main_v…` of the
  generated read-back), applied to the launch contents of the arguments. A buffer that a later segment reads is
  carried there unchanged: no host operation writes it (a stretch writes only its own results), and a region
  changes only its output array.
-/
import proofs.«126328_j2491081031685_1_alg».proof.Proof.Gen.KernelIdeal.Frame
import proofs.«126328_j2491081031685_1_alg».proof.Proof.Gen.ReferenceIdeal.Read
import proofs.«126328_j2491081031685_1_alg».proof.Proof.FirstProduct
import proofs.«126328_j2491081031685_1_alg».proof.Proof.SecondProduct
import proofs.«126328_j2491081031685_1_alg».proof.Proof.FirstFinalize
import proofs.«126328_j2491081031685_1_alg».proof.Proof.SecondFinalize
import proofs.«126328_j2491081031685_1_alg».proof.Proof.Layers
import Idealize.ShloMosaic.Lib.StableHlo.Run

set_option maxRecDepth 16384

noncomputable section

namespace Cert.KernelIdeal.Boundaries

open Cert.KernelIdeal Cert.KernelIdeal.Gen Cert.KernelIdeal.Finalized
open Idealize.ShloMosaic Idealize.ShloMosaic.TcCoe Idealize.SL.Sem
open Idealize.ShloMosaic.Pipeline (Dat)
open Cert.ReferenceIdeal.Read (val_main_v1 val_main_v3 val_main_v4 val_main_v11 val_main_v39 val_main_v40 val_main_v48 val_main_v49 val_main_v84 val_main_v93)

variable (m : (ℓ : Loc nD τ sig) → Buf (Elt Ideal) ℓ) (ρ : Dev nD → PrngReg) (c : Dev nD)

/-- A buffer that no operation of a host stretch writes holds after the stretch what it held before. -/
macro "stretch_keeps" : tactic => `(tactic| (
  refine StableHlo.after_of_forall_not_mem _ _ (List.forall_iff_forall_mem.mp ?_)
  simp only [hostOps0, hostOps1, hostOps3, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The launch contents of the six arguments -/

abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)

/-! ## After the first host stretch -/

theorem features_1 : W1 m ρ c (Proc.devRef .tc main_arg0) = x0 m c :=
  (by stretch_keeps : W1 m ρ c (Proc.devRef .tc main_arg0) = W0 m ρ c (Proc.devRef .tc main_arg0)).trans rfl
theorem weight1_1 : W1 m ρ c (Proc.devRef .tc main_arg2) = x2 m c :=
  (by stretch_keeps : W1 m ρ c (Proc.devRef .tc main_arg2) = W0 m ρ c (Proc.devRef .tc main_arg2)).trans rfl
theorem weight2_1 : W1 m ρ c (Proc.devRef .tc main_arg4) = x4 m c :=
  (by stretch_keeps : W1 m ρ c (Proc.devRef .tc main_arg4) = W0 m ρ c (Proc.devRef .tc main_arg4)).trans rfl

/-- The source row of the edge list. -/
theorem src_1 : W1 m ρ c (Proc.devRef .tc main_v1) = val_main_v1 (F := Ideal) (x1 m c) := by
  show StableHlo.after hostOps0 (W0 m ρ c) (Proc.devRef .tc main_v1) = _
  dsimp only [hostOps0]
  after_results
  rfl
/-- The destination row of the edge list. -/
theorem dst_1 : W1 m ρ c (Proc.devRef .tc main_v3) = val_main_v3 (F := Ideal) (x1 m c) := by
  show StableHlo.after hostOps0 (W0 m ρ c) (Proc.devRef .tc main_v3) = _
  dsimp only [hostOps0]
  after_results
  rfl
/-- The inverse root of each node's degree (incoming edges plus the self-loop). -/
theorem dinv_1 : W1 m ρ c (Proc.devRef .tc main_v10) = val_main_v11 (F := Ideal) (x1 m c) := by
  show StableHlo.after hostOps0 (W0 m ρ c) (Proc.devRef .tc main_v10) = _
  dsimp only [hostOps0]
  after_results
  rfl
/-- Its square, laid out as a column. -/
theorem col_1 : W1 m ρ c (Proc.devRef .tc main_v12)
    = shapeCast S100000x1 (val_main_v40 (F := Ideal) (x1 m c)) Facts₀.shapeCasts_S100000_S100000x1 := by
  show StableHlo.after hostOps0 (W0 m ρ c) (Proc.devRef .tc main_v12) = _
  dsimp only [hostOps0]
  after_results
  rfl
/-- The first bias as a row. -/
theorem bias1_1 : W1 m ρ c (Proc.devRef .tc main_v13) = shapeCast S1x128 (x3 m c) Facts₀.shapeCasts_S128_S1x128 := by
  show StableHlo.after hostOps0 (W0 m ρ c) (Proc.devRef .tc main_v13) = _
  dsimp only [hostOps0]
  after_results
  rfl
/-- The second bias as a row. -/
theorem bias2_1 : W1 m ρ c (Proc.devRef .tc main_v14) = shapeCast S1x128 (x5 m c) Facts₀.shapeCasts_S128_S1x128 := by
  show StableHlo.after hostOps0 (W0 m ρ c) (Proc.devRef .tc main_v14) = _
  dsimp only [hostOps0]
  after_results
  rfl

/-! ## After the first matrix-product region -/

/-- x W1. -/
theorem product_2 : W2 m ρ c (Proc.devRef .tc main_v15) = val_main_v4 (F := Ideal) (x0 m c) (x2 m c) := by
  refine (W2_arr m ρ c 2).trans ?_
  refine (Cert.KernelIdeal.FirstProduct.result (V1 m ρ) c).trans ?_
  show val_main_v4 (F := Ideal) (W1 m ρ c (Proc.devRef .tc main_arg0)) (W1 m ρ c (Proc.devRef .tc main_arg2)) = _
  rw [features_1 m ρ c, weight1_1 m ρ c]

theorem src_2 : W2 m ρ c (Proc.devRef .tc main_v1) = val_main_v1 (F := Ideal) (x1 m c) :=
  (W2_of_ne m ρ c main_v1 (by decide)).trans (src_1 m ρ c)
theorem dst_2 : W2 m ρ c (Proc.devRef .tc main_v3) = val_main_v3 (F := Ideal) (x1 m c) :=
  (W2_of_ne m ρ c main_v3 (by decide)).trans (dst_1 m ρ c)
theorem dinv_2 : W2 m ρ c (Proc.devRef .tc main_v10) = val_main_v11 (F := Ideal) (x1 m c) :=
  (W2_of_ne m ρ c main_v10 (by decide)).trans (dinv_1 m ρ c)
theorem col_2 : W2 m ρ c (Proc.devRef .tc main_v12)
    = shapeCast S100000x1 (val_main_v40 (F := Ideal) (x1 m c)) Facts₀.shapeCasts_S100000_S100000x1 :=
  (W2_of_ne m ρ c main_v12 (by decide)).trans (col_1 m ρ c)
theorem bias1_2 : W2 m ρ c (Proc.devRef .tc main_v13) = shapeCast S1x128 (x3 m c) Facts₀.shapeCasts_S128_S1x128 :=
  (W2_of_ne m ρ c main_v13 (by decide)).trans (bias1_1 m ρ c)
theorem bias2_2 : W2 m ρ c (Proc.devRef .tc main_v14) = shapeCast S1x128 (x5 m c) Facts₀.shapeCasts_S128_S1x128 :=
  (W2_of_ne m ρ c main_v14 (by decide)).trans (bias2_1 m ρ c)
theorem weight2_2 : W2 m ρ c (Proc.devRef .tc main_arg4) = x4 m c :=
  (W2_of_ne m ρ c main_arg4 (by decide)).trans (weight2_1 m ρ c)

/-! ## After the second host stretch -/

/-- The first layer's aggregated messages: the reference's own gather, scale and scatter-add chain on x W1. -/
theorem agg_3 : W3 m ρ c (Proc.devRef .tc main_v43) = val_main_v39 (F := Ideal) (x0 m c) (x1 m c) (x2 m c) := by
  show StableHlo.after hostOps1 (W2 m ρ c) (Proc.devRef .tc main_v43) = _
  dsimp only [hostOps1]
  after_results_simp
  rw [product_2 m ρ c, src_2 m ρ c, dst_2 m ρ c, dinv_2 m ρ c]
  rfl

theorem product_3 : W3 m ρ c (Proc.devRef .tc main_v15) = val_main_v4 (F := Ideal) (x0 m c) (x2 m c) :=
  (by stretch_keeps : W3 m ρ c (Proc.devRef .tc main_v15) = W2 m ρ c (Proc.devRef .tc main_v15)).trans (product_2 m ρ c)
theorem src_3 : W3 m ρ c (Proc.devRef .tc main_v1) = val_main_v1 (F := Ideal) (x1 m c) :=
  (by stretch_keeps : W3 m ρ c (Proc.devRef .tc main_v1) = W2 m ρ c (Proc.devRef .tc main_v1)).trans (src_2 m ρ c)
theorem dst_3 : W3 m ρ c (Proc.devRef .tc main_v3) = val_main_v3 (F := Ideal) (x1 m c) :=
  (by stretch_keeps : W3 m ρ c (Proc.devRef .tc main_v3) = W2 m ρ c (Proc.devRef .tc main_v3)).trans (dst_2 m ρ c)
theorem dinv_3 : W3 m ρ c (Proc.devRef .tc main_v10) = val_main_v11 (F := Ideal) (x1 m c) :=
  (by stretch_keeps : W3 m ρ c (Proc.devRef .tc main_v10) = W2 m ρ c (Proc.devRef .tc main_v10)).trans (dinv_2 m ρ c)
theorem col_3 : W3 m ρ c (Proc.devRef .tc main_v12)
    = shapeCast S100000x1 (val_main_v40 (F := Ideal) (x1 m c)) Facts₀.shapeCasts_S100000_S100000x1 :=
  (by stretch_keeps : W3 m ρ c (Proc.devRef .tc main_v12) = W2 m ρ c (Proc.devRef .tc main_v12)).trans (col_2 m ρ c)
theorem bias1_3 : W3 m ρ c (Proc.devRef .tc main_v13) = shapeCast S1x128 (x3 m c) Facts₀.shapeCasts_S128_S1x128 :=
  (by stretch_keeps : W3 m ρ c (Proc.devRef .tc main_v13) = W2 m ρ c (Proc.devRef .tc main_v13)).trans (bias1_2 m ρ c)
theorem bias2_3 : W3 m ρ c (Proc.devRef .tc main_v14) = shapeCast S1x128 (x5 m c) Facts₀.shapeCasts_S128_S1x128 :=
  (by stretch_keeps : W3 m ρ c (Proc.devRef .tc main_v14) = W2 m ρ c (Proc.devRef .tc main_v14)).trans (bias2_2 m ρ c)
theorem weight2_3 : W3 m ρ c (Proc.devRef .tc main_arg4) = x4 m c :=
  (by stretch_keeps : W3 m ρ c (Proc.devRef .tc main_arg4) = W2 m ρ c (Proc.devRef .tc main_arg4)).trans (weight2_2 m ρ c)

/-! ## After the first finalizing region -/

/-- The first layer's output. -/
theorem layer_4 : W4 m ρ c (Proc.devRef .tc main_v44)
    = val_main_v48 (F := Ideal) (x0 m c) (x1 m c) (x2 m c) (x3 m c) := by
  refine (W4_arr m ρ c 4).trans ?_
  refine (Cert.KernelIdeal.FirstFinalize.result (V3 m ρ) c).trans ?_
  show finalized (W3 m ρ c (Proc.devRef .tc main_v43)) (W3 m ρ c (Proc.devRef .tc main_v15))
      (W3 m ρ c (Proc.devRef .tc main_v12)) (W3 m ρ c (Proc.devRef .tc main_v13)) = _
  rw [agg_3 m ρ c, product_3 m ρ c, col_3 m ρ c, bias1_3 m ρ c]
  exact Cert.Layers.first_layer _ _ _ _ _ _

theorem src_4 : W4 m ρ c (Proc.devRef .tc main_v1) = val_main_v1 (F := Ideal) (x1 m c) :=
  (W4_of_ne m ρ c main_v1 (by decide)).trans (src_3 m ρ c)
theorem dst_4 : W4 m ρ c (Proc.devRef .tc main_v3) = val_main_v3 (F := Ideal) (x1 m c) :=
  (W4_of_ne m ρ c main_v3 (by decide)).trans (dst_3 m ρ c)
theorem dinv_4 : W4 m ρ c (Proc.devRef .tc main_v10) = val_main_v11 (F := Ideal) (x1 m c) :=
  (W4_of_ne m ρ c main_v10 (by decide)).trans (dinv_3 m ρ c)
/-- The column of squared inverse-root degrees is an input of the region: read, not written. -/
theorem col_4 : W4 m ρ c (Proc.devRef .tc main_v12)
    = shapeCast S100000x1 (val_main_v40 (F := Ideal) (x1 m c)) Facts₀.shapeCasts_S100000_S100000x1 :=
  (W4_arr m ρ c 2).trans (((dat1 (V3 m ρ) c).arrAt_in 2 rfl _).trans ((A_eq1 (V3 m ρ) c 2).trans (col_3 m ρ c)))
theorem bias2_4 : W4 m ρ c (Proc.devRef .tc main_v14) = shapeCast S1x128 (x5 m c) Facts₀.shapeCasts_S128_S1x128 :=
  (W4_of_ne m ρ c main_v14 (by decide)).trans (bias2_3 m ρ c)
theorem weight2_4 : W4 m ρ c (Proc.devRef .tc main_arg4) = x4 m c :=
  (W4_of_ne m ρ c main_arg4 (by decide)).trans (weight2_3 m ρ c)

/-! ## After the second matrix-product region -/

/-- The first layer's output times W2. -/
theorem product_5 : W5 m ρ c (Proc.devRef .tc main_v45)
    = val_main_v49 (F := Ideal) (x0 m c) (x1 m c) (x2 m c) (x3 m c) (x4 m c) := by
  refine (W5_arr m ρ c 2).trans ?_
  refine (Cert.KernelIdeal.SecondProduct.result (V4 m ρ) c).trans ?_
  show val_main_v4 (F := Ideal) (W4 m ρ c (Proc.devRef .tc main_v44)) (W4 m ρ c (Proc.devRef .tc main_arg4)) = _
  rw [layer_4 m ρ c, weight2_4 m ρ c]
  exact Cert.Layers.second_product _ _ _ _ _

theorem src_5 : W5 m ρ c (Proc.devRef .tc main_v1) = val_main_v1 (F := Ideal) (x1 m c) :=
  (W5_of_ne m ρ c main_v1 (by decide)).trans (src_4 m ρ c)
theorem dst_5 : W5 m ρ c (Proc.devRef .tc main_v3) = val_main_v3 (F := Ideal) (x1 m c) :=
  (W5_of_ne m ρ c main_v3 (by decide)).trans (dst_4 m ρ c)
theorem dinv_5 : W5 m ρ c (Proc.devRef .tc main_v10) = val_main_v11 (F := Ideal) (x1 m c) :=
  (W5_of_ne m ρ c main_v10 (by decide)).trans (dinv_4 m ρ c)
theorem col_5 : W5 m ρ c (Proc.devRef .tc main_v12)
    = shapeCast S100000x1 (val_main_v40 (F := Ideal) (x1 m c)) Facts₀.shapeCasts_S100000_S100000x1 :=
  (W5_of_ne m ρ c main_v12 (by decide)).trans (col_4 m ρ c)
theorem bias2_5 : W5 m ρ c (Proc.devRef .tc main_v14) = shapeCast S1x128 (x5 m c) Facts₀.shapeCasts_S128_S1x128 :=
  (W5_of_ne m ρ c main_v14 (by decide)).trans (bias2_4 m ρ c)

/-! ## After the third host stretch -/

/-- The second layer's aggregated messages: the same chain on the second matrix product, with the same
    inverse-root degrees (the reference computes them a second time: `Layers.second_degrees`). -/
theorem agg_6 : W6 m ρ c (Proc.devRef .tc main_v73)
    = val_main_v84 (F := Ideal) (x0 m c) (x1 m c) (x2 m c) (x3 m c) (x4 m c) := by
  show StableHlo.after hostOps3 (W5 m ρ c) (Proc.devRef .tc main_v73) = _
  dsimp only [hostOps3]
  after_results_simp
  rw [product_5 m ρ c, src_5 m ρ c, dst_5 m ρ c, dinv_5 m ρ c, ← Cert.Layers.second_degrees (x1 m c)]
  rfl

theorem product_6 : W6 m ρ c (Proc.devRef .tc main_v45)
    = val_main_v49 (F := Ideal) (x0 m c) (x1 m c) (x2 m c) (x3 m c) (x4 m c) :=
  (by stretch_keeps : W6 m ρ c (Proc.devRef .tc main_v45) = W5 m ρ c (Proc.devRef .tc main_v45)).trans (product_5 m ρ c)
theorem col_6 : W6 m ρ c (Proc.devRef .tc main_v12)
    = shapeCast S100000x1 (val_main_v40 (F := Ideal) (x1 m c)) Facts₀.shapeCasts_S100000_S100000x1 :=
  (by stretch_keeps : W6 m ρ c (Proc.devRef .tc main_v12) = W5 m ρ c (Proc.devRef .tc main_v12)).trans (col_5 m ρ c)
theorem bias2_6 : W6 m ρ c (Proc.devRef .tc main_v14) = shapeCast S1x128 (x5 m c) Facts₀.shapeCasts_S128_S1x128 :=
  (by stretch_keeps : W6 m ρ c (Proc.devRef .tc main_v14) = W5 m ρ c (Proc.devRef .tc main_v14)).trans (bias2_5 m ρ c)

/-! ## After the second finalizing region: the result -/

/-- The result array at the return is the reference's last stage of the six launch arrays. -/
theorem result_7 : W7 m ρ c (Proc.devRef .tc main_v74)
    = val_main_v93 (F := Ideal) (x0 m c) (x1 m c) (x2 m c) (x3 m c) (x4 m c) (x5 m c) := by
  refine (W7_arr m ρ c 4).trans ?_
  refine (Cert.KernelIdeal.SecondFinalize.result (V6 m ρ) c).trans ?_
  show finalized (W6 m ρ c (Proc.devRef .tc main_v73)) (W6 m ρ c (Proc.devRef .tc main_v45))
      (W6 m ρ c (Proc.devRef .tc main_v12)) (W6 m ρ c (Proc.devRef .tc main_v14)) = _
  rw [agg_6 m ρ c, product_6 m ρ c, col_6 m ρ c, bias2_6 m ρ c]
  exact Cert.Layers.second_layer _ _ _ _ _ _ _ _

end Cert.KernelIdeal.Boundaries

end
-- ==== Proof.lean ====
/-
  A two-layer graph convolution as four kernels among host operations, against its plain reference, on the extended reals.

  One layer of the reference is relu ((A h + h * dinv^2[:, None]) + b[None, :]) with h = x W, dinv the inverse root of
  each node's degree (incoming edges plus a self-loop), and A h the messages h[src] * (dinv[src] * dinv[dst])[:, None]
  added up per destination node. The kernel's program computes the same thing in pieces: h by a matrix-product kernel
  over blocks of 5000 rows (its operands narrowed to bf16 on the way in: no change on the extended reals), the degrees
  and the aggregation by the same host operations as the reference, and the rest, max ((A h + h * d) + b, 0), by a
  finalizing kernel over the same row blocks, with the squared degrees reshaped to a column and the bias to a row.
  Nothing is regrouped: the row blocks do not cut the sum over the 128 contracted positions, and the finalizing
  arithmetic is the reference's, operation for operation. So the two results are equal entry by entry for every
  argument, infinite entries included, and the precondition is never opened.

  The pieces: `ResultRun` (the kernel program's run with its result buffer named), `FirstProduct` / `SecondProduct`
  and `FirstFinalize` / `SecondFinalize` (what each region leaves in its output array, from what each grid point
  writes back), `Layers` (the finalized arrays are the reference's layer outputs), `Boundaries` (the buffers through
  the seven segments of @main, ending in the result), and the generated read-back of the reference.
  The ideal pass rewrote nothing in this kernel, so the preservation claim is `True`.
-/
import proofs.«126328_j2491081031685_1_alg».proof.Defs
import proofs.«126328_j2491081031685_1_alg».proof.Proof.Gen.Kernel
import proofs.«126328_j2491081031685_1_alg».proof.Proof.Gen.Kernel.Skeleton
import proofs.«126328_j2491081031685_1_alg».proof.Proof.Gen.Kernel.Launch
import proofs.«126328_j2491081031685_1_alg».proof.Proof.Gen.Kernel.Points
import proofs.«126328_j2491081031685_1_alg».proof.Proof.Gen.Kernel.Frame
import proofs.«126328_j2491081031685_1_alg».proof.Proof.Gen.KernelIdeal
import proofs.«126328_j2491081031685_1_alg».proof.Proof.Gen.KernelIdeal.Skeleton
import proofs.«126328_j2491081031685_1_alg».proof.Proof.Gen.KernelIdeal.Launch
import proofs.«126328_j2491081031685_1_alg».proof.Proof.Gen.KernelIdeal.Points
import proofs.«126328_j2491081031685_1_alg».proof.Proof.Gen.KernelIdeal.Frame
import proofs.«126328_j2491081031685_1_alg».proof.Proof.Gen.ReferenceIdeal
import proofs.«126328_j2491081031685_1_alg».proof.Proof.Gen.Pre_finite_inputs
import proofs.«126328_j2491081031685_1_alg».proof.Proof.Gen.ReferenceIdeal.Run
import proofs.«126328_j2491081031685_1_alg».proof.Proof.Gen.ReferenceIdeal.Read
import proofs.«126328_j2491081031685_1_alg».proof.Proof.ResultRun
import proofs.«126328_j2491081031685_1_alg».proof.Proof.Boundaries
import Idealize.ShloMosaic.Adequacy
import Idealize.ShloMosaic.Init

noncomputable section

namespace Cert.Proof

open Idealize.ShloMosaic Idealize.SL.Sem

/-- The word-level kernel program runs, nothing faulting, and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation of this kernel. -/
theorem preserves : Cert.preserves_Kernel_KernelIdeal := trivial

/-- From memories that agree on the six arguments both programs end with the reference's last stage of those
    arguments in their result arrays: the kernel's by the walk through its seven segments, the reference's by its
    generated run. -/
theorem algebraic : Cert.algebraic_KernelIdeal_ReferenceIdeal := by
  intro m ρ m' ρ' _ hagree
  refine ⟨fun c => Cert.ReferenceIdeal.Read.val_main_v93 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Boundaries.result_7 m ρ c), (h c).2⟩)
      (Cert.KernelIdeal.ResultRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v93_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
